-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x4099x512 : Shape := ⟨4, ![8, 1, 4099, 512]⟩
abbrev S8x4099 : Shape := ⟨2, ![8, 4099]⟩
abbrev S_ : Shape := ⟨0, ![]⟩

class Facts : Prop where
  bcast_S_S8x1x4099x512 : S_.BroadcastsInDim S8x1x4099x512 (![] : Fin 0 → Fin S8x1x4099x512.rank)
  reducesTo_S8x1x4099x512_S_d0_1_2_3 : S8x1x4099x512.ReducesTo [0, 1, 2, 3] S_
  h_S_ : 0 < S_.numel
  bcast_S_S8x4099 : S_.BroadcastsInDim S8x4099 (![] : Fin 0 → Fin S8x4099.rank)
  reducesTo_S8x4099_S_d0_1 : S8x4099.ReducesTo [0, 1] S_

variable [Facts]

def fn {F : FTy → Type} [FloatOps F] (main_arg0 : FVec F S8x1x4099x512 .f32) (main_arg1 : FVec F S8x4099 .f32) : IVec S_ 1 :=
  let main_v0 : FVec F S8x1x4099x512 .f32 := Host.absf main_arg0
  let main_cst : FVec F S_ .f32 := constant S_ .f32 0x7F800000#32
  let main_v1 : FVec F S8x1x4099x512 .f32 := broadcastInDim S8x1x4099x512 ![] bcast_S_S8x1x4099x512 main_cst
  let main_v2 : IVec S8x1x4099x512 1 := cmpf .olt main_v0 main_v1
  let main_c : IVec S_ 1 := constantI S_ 1 1#1
  let main_v3 : IVec S_ 1 := (fun x v => Host.reduce IntOp.andi x v reducesTo_S8x1x4099x512_S_d0_1_2_3 h_S_) main_v2 main_c
  let main_v4 : FVec F S8x4099 .f32 := Host.absf main_arg1
  let main_cst_0 : FVec F S_ .f32 := constant S_ .f32 0x7F800000#32
  let main_v5 : FVec F S8x4099 .f32 := broadcastInDim S8x4099 ![] bcast_S_S8x4099 main_cst_0
  let main_v6 : IVec S8x4099 1 := cmpf .olt main_v4 main_v5
  let main_c_1 : IVec S_ 1 := constantI S_ 1 1#1
  let main_v7 : IVec S_ 1 := (fun x v => Host.reduce IntOp.andi x v reducesTo_S8x4099_S_d0_1 h_S_) main_v6 main_c_1
  let main_v8 : IVec S_ 1 := andi main_v3 main_v7
  main_v8
-- ==== Kernel.lean ====
abbrev S8x1x4099x512 : Shape := ⟨4, ![8, 1, 4099, 512]⟩
abbrev S8x4099 : Shape := ⟨2, ![8, 4099]⟩
abbrev S8x4099x1 : Shape := ⟨3, ![8, 4099, 1]⟩
abbrev S8x1x4096x512 : Shape := ⟨4, ![8, 1, 4096, 512]⟩
abbrev S1x1x4099x256 : Shape := ⟨4, ![1, 1, 4099, 256]⟩
abbrev S1x4099x1 : Shape := ⟨3, ![1, 4099, 1]⟩
abbrev S1x1x4096x256 : Shape := ⟨4, ![1, 1, 4096, 256]⟩
abbrev S4099x256 : Shape := ⟨2, ![4099, 256]⟩
abbrev S4099x1 : Shape := ⟨2, ![4099, 1]⟩
abbrev S4098x256 : Shape := ⟨2, ![4098, 256]⟩
abbrev S4096x256 : Shape := ⟨2, ![4096, 256]⟩

abbrev nBuf : Space → Nat
  | .hbm => 4
  | .vmem => 5
  | .smem => 0
  | _ => 0

abbrev bufTy : (tb : Table) → Fin (tcTables nBuf tb) → BufTy
  | .hbm, ⟨0, _⟩ => ⟨S8x1x4099x512, .f32⟩
  | .hbm, ⟨1, _⟩ => ⟨S8x4099, .f32⟩
  | .hbm, ⟨2, _⟩ => ⟨S8x4099x1, .f32⟩
  | .hbm, ⟨3, _⟩ => ⟨S8x1x4096x512, .f32⟩
  | .local _ .vmem, ⟨0, _⟩ => ⟨S1x1x4099x256, .f32⟩
  | .local _ .vmem, ⟨1, _⟩ => ⟨S1x1x4099x256, .f32⟩
  | .local _ .vmem, ⟨2, _⟩ => ⟨S1x4099x1, .f32⟩
  | .local _ .vmem, ⟨3, _⟩ => ⟨S1x1x4096x256, .f32⟩
  | .local _ .vmem, ⟨4, _⟩ => ⟨S1x1x4096x256, .f32⟩
  | _, _ => ⟨S8x1x4099x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1x4099x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4099x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S8x4099_S8x4099x1_0_1 : S8x4099.BroadcastsInDim S8x4099x1 (![0, 1] : Fin 2 → Fin S8x4099x1.rank)
  inb_S1x1x4099x256_S1x1x4099x256_0_0_0_0 : ∀ a, (![0, 0, 0, 0] : Fin 4 → Nat) a + S1x1x4099x256.size a ≤ S1x1x4099x256.size a
  h_S1x1x4099x256 : 0 < S1x1x4099x256.numel
  shapeCasts_S1x1x4099x256_S4099x256 : S1x1x4099x256.ShapeCasts S4099x256
  inb_S1x4099x1_S1x4099x1_0_0_0 : ∀ a, (![0, 0, 0] : Fin 3 → Nat) a + S1x4099x1.size a ≤ S1x4099x1.size a
  h_S1x4099x1 : 0 < S1x4099x1.numel
  shapeCasts_S1x4099x1_S4099x1 : S1x4099x1.ShapeCasts S4099x1
  broadcasts_S4099x1_S4099x256 : S4099x1.Broadcasts S4099x256
  slices_S4099x256_o0_0_S4098x256 : S4099x256.Slices ![0, 0] S4098x256
  slices_S4099x256_o1_0_S4098x256 : S4099x256.Slices ![1, 0] S4098x256
  slices_S4098x256_o0_0_S4096x256 : S4098x256.Slices ![0, 0] S4096x256
  slices_S4098x256_o2_0_S4096x256 : S4098x256.Slices ![2, 0] S4096x256
  inb_S1x1x4096x256_S1x1x4096x256_0_0_0_0 : ∀ a, (![0, 0, 0, 0] : Fin 4 → Nat) a + S1x1x4096x256.size a ≤ S1x1x4096x256.size a
  h_S1x1x4096x256 : 0 < S1x1x4096x256.numel
  shapeCasts_S1x1x4096x256_S4096x256 : S1x1x4096x256.ShapeCasts S4096x256
  shapeCasts_S4096x256_S1x1x4096x256 : S4096x256.ShapeCasts S1x1x4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4099x256.size a ≤ S8x1x4099x512.size a
  hwx0_0 : ∀ i : grid0.Coords, EltTy.bits .f32 = 32 ∨ (Rect.block (s := S8x1x4099x512) S1x1x4099x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4099x1.size a ≤ S8x4099x1.size a
  hwx0_1 : ∀ i : grid0.Coords, EltTy.bits .f32 = 32 ∨ (Rect.block (s := S8x4099x1) S1x4099x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x256.size a ≤ S8x1x4096x512.size a
  hwx0_2 : ∀ i : grid0.Coords, EltTy.bits .f32 = 32 ∨ (Rect.block (s := S8x1x4096x512) S1x1x4096x256.size (cc0_transform_2 i) (hinb0_2 i)).WholeWords (EltTy.packing .f32)

variable [Facts₀]

abbrev win0_0 : Pipeline.Window sig grid0 :=
  Pipeline.Window.ofSpec (Memref.whole main_arg0) S1x1x4099x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4099x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x4099x512 : Shape := ⟨4, ![8, 1, 4099, 512]⟩
abbrev S8x4099 : Shape := ⟨2, ![8, 4099]⟩
abbrev S8x1x4099x1 : Shape := ⟨4, ![8, 1, 4099, 1]⟩
abbrev S8x1x4096x512 : Shape := ⟨4, ![8, 1, 4096, 512]⟩

abbrev nBuf : Space → Nat
  | .hbm => 12
  | .vmem => 0
  | .smem => 0
  | _ => 0

abbrev bufTy : (tb : Table) → Fin (tcTables nBuf tb) → BufTy
  | .hbm, ⟨0, _⟩ => ⟨S8x1x4099x512, .f32⟩
  | .hbm, ⟨1, _⟩ => ⟨S8x4099, .f32⟩
  | .hbm, ⟨2, _⟩ => ⟨S8x1x4099x1, .f32⟩
  | .hbm, ⟨3, _⟩ => ⟨S8x1x4099x512, .f32⟩
  | .hbm, ⟨4, _⟩ => ⟨S8x1x4099x512, .f32⟩
  | .hbm, ⟨5, _⟩ => ⟨S8x1x4096x512, .f32⟩
  | .hbm, ⟨6, _⟩ => ⟨S8x1x4096x512, .f32⟩
  | .hbm, ⟨7, _⟩ => ⟨S8x1x4096x512, .f32⟩
  | .hbm, ⟨8, _⟩ => ⟨S8x1x4096x512, .f32⟩
  | .hbm, ⟨9, _⟩ => ⟨S8x1x4096x512, .f32⟩
  | .hbm, ⟨10, _⟩ => ⟨S8x1x4096x512, .f32⟩
  | .hbm, ⟨11, _⟩ => ⟨S8x1x4096x512, .f32⟩
  | _, _ => ⟨S8x1x4099x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  bcast_S8x4099_S8x1x4099x1_0_2 : S8x4099.BroadcastsInDim S8x1x4099x1 (![0, 2] : Fin 2 → Fin S8x1x4099x1.rank)
  bcast_S8x1x4099x1_S8x1x4099x512_0_1_2_3 : S8x1x4099x1.BroadcastsInDim S8x1x4099x512 (![0, 1, 2, 3] : Fin 4 → Fin S8x1x4099x512.rank)
  slices_S8x1x4099x512_S8x1x4096x512_0_0_0_0 : S8x1x4099x512.Slices ![0, 0, 0, 0] S8x1x4096x512
  slices_S8x1x4099x512_S8x1x4096x512_0_0_1_0 : S8x1x4099x512.Slices ![0, 0, 1, 0] S8x1x4096x512
  slices_S8x1x4099x512_S8x1x4096x512_0_0_2_0 : S8x1x4099x512.Slices ![0, 0, 2, 0] S8x1x4096x512
  slices_S8x1x4099x512_S8x1x4096x512_0_0_3_0 : S8x1x4099x512.Slices ![0, 0, 3, 0] S8x1x4096x512

variable [Facts₀]

class Facts : Prop extends Facts₀ where

variable [Facts]
-- ==== Proof.WindowSum.lean ====
/-
  The sliding-window sum of weighted rows, as ONE function of the two argument arrays, in the two bracketings that occur.

  The arguments are a batch of sequences `x : [8, 1, 4099, 512]` (batch, one channel, position, feature) and one weight per
  batch and position, `a : [8, 4099]`. Write the weighted row
        w b k h = x[b, 0, k, h] · a[b, k].
  The result `[8, 1, 4096, 512]` at `(b, 0, k, h)` is the sum of the four weighted rows at positions `k, k+1, k+2, k+3`
  (4096 + 3 = 4099: the last window ends on the last position, so no window runs off the sequence).

  Four terms can be added in two pairs, `(w k + w (k+1)) + (w (k+2) + w (k+3))`, or as a running sum from the left,
  `((w k + w (k+1)) + w (k+2)) + w (k+3)`. Both are stated below over any interpretation of the floats, so that each can
  be matched against a program term by term. Over the extended reals they are one function, by associativity of addition
  alone. No finiteness of the inputs is needed for that: with the convention `⊥ + ⊤ = ⊥` the extended reals are still a
  commutative monoid under `+`; it is distributivity and cancellation that fail at the infinities, and neither is used.
-/
import Idealize.ShloMosaic.PureOps.Ideal
import Idealize.ShloMosaic.Lib.ValueIdx

noncomputable section

namespace Cert.WindowSum

open Idealize.ShloMosaic

/-- The sequences: 8 batches, one channel, 4099 positions, 512 features. -/
abbrev SeqShape : Shape := ⟨4, ![8, 1, 4099, 512]⟩
/-- The weights: one per batch and position. -/
abbrev WeightShape : Shape := ⟨2, ![8, 4099]⟩
/-- The result: 4096 window starts per batch and feature. -/
abbrev OutShape : Shape := ⟨4, ![8, 1, 4096, 512]⟩

variable {F : FTy → Type} [FloatOps F]

/-- Position `k + j` of the sequence, in the batch and feature of the result index `i = (b, 0, k, h)`, for a shift `j < 4`:
    the index `(b, 0, k + j, h)`. It is a position of the sequence because `k < 4096` and `j ≤ 3`. -/
abbrev seqAt (i : OutShape.Idx) (j : Nat) (hj : j < 4) : SeqShape.Idx := fun a => match a with
  | ⟨0, _⟩ => ⟨(i 0).val, (i 0).isLt⟩
  | ⟨1, _⟩ => ⟨0, Nat.one_pos⟩
  | ⟨2, _⟩ => ⟨(i 2).val + j, by have h2 : (i 2).val < 4096 := (i 2).isLt; show (i 2).val + j < 4099; omega⟩
  | ⟨3, _⟩ => ⟨(i 3).val, (i 3).isLt⟩

/-- The weight of that position: the index `(b, k + j)`. -/
abbrev weightAt (i : OutShape.Idx) (j : Nat) (hj : j < 4) : WeightShape.Idx := fun a => match a with
  | ⟨0, _⟩ => ⟨(i 0).val, (i 0).isLt⟩
  | ⟨1, _⟩ => ⟨(i 2).val + j, by have h2 : (i 2).val < 4096 := (i 2).isLt; show (i 2).val + j < 4099; omega⟩

/-- The weighted row at shift `j`: `x[b, 0, k + j, h] · a[b, k + j]`. -/
abbrev weighted (x : SeqShape.Idx → Elt F .f32) (a : WeightShape.Idx → Elt F .f32) (i : OutShape.Idx) (j : Nat) (hj : j < 4) :
    Elt F .f32 :=
  FloatOps.mulf (x (seqAt i j hj)) (a (weightAt i j hj))

/-- The window sum added in two pairs: `(w k + w (k+1)) + (w (k+2) + w (k+3))`. -/
abbrev pairSum (x : SeqShape.Idx → Elt F .f32) (a : WeightShape.Idx → Elt F .f32) : OutShape.Idx → Elt F .f32 := fun i =>
  FloatOps.addf (FloatOps.addf (weighted x a i 0 (by decide)) (weighted x a i 1 (by decide)))
    (FloatOps.addf (weighted x a i 2 (by decide)) (weighted x a i 3 (by decide)))

/-- The window sum as a running sum from the left: `((w k + w (k+1)) + w (k+2)) + w (k+3)`. -/
abbrev runningSum (x : SeqShape.Idx → Elt F .f32) (a : WeightShape.Idx → Elt F .f32) : OutShape.Idx → Elt F .f32 := fun i =>
  FloatOps.addf (FloatOps.addf (FloatOps.addf (weighted x a i 0 (by decide)) (weighted x a i 1 (by decide)))
    (weighted x a i 2 (by decide))) (weighted x a i 3 (by decide))

/-- Over the extended reals the two bracketings are one function: `(p + q) + (r + s) = ((p + q) + r) + s` is associativity
    of `+` read from right to left, and it holds for all extended reals, infinite ones included. -/
theorem pairSum_eq_runningSum (x : SeqShape.Idx → Elt Ideal .f32) (a : WeightShape.Idx → Elt Ideal .f32) :
    pairSum (F := Ideal) x a = runningSum (F := Ideal) x a := by
  funext i
  simp only [pairSum, runningSum, Ideal.addf_def]
  exact (add_assoc _ _ _).symm

end Cert.WindowSum

end
-- ==== Proof.ReferenceSum.lean ====
/-
  The reference program's result is the window sum taken as a running sum from the left.

  The reference multiplies the sequences by the weights, broadcast over the channel and the feature axes, and then adds four
  slices of the product along the position axis, positions `j … j + 4095` for `j = 0, 1, 2, 3`, one after the other onto a
  running total. Read at a result index `(b, 0, k, h)`, slice `j` of the product is the weighted row at position `k + j`:
  the slice shifts the position by its offset `j` and leaves the other three coordinates alone, and the two broadcasts read the
  weight at `(b, k + j)`, forgetting the channel (always 0) and the feature. So the result is
  `((w k + w (k+1)) + w (k+2)) + w (k+3)`, for any interpretation of the floats: nothing here uses a law of arithmetic.
-/
import proofs.«123186_j79491254714439_2_alg».proof.Proof.Gen.ReferenceIdeal.Read
import proofs.«123186_j79491254714439_2_alg».proof.Proof.WindowSum

noncomputable section

namespace Cert.ReferenceIdeal.RefValue

open Cert.ReferenceIdeal Cert.ReferenceIdeal.Read Cert.WindowSum Idealize.ShloMosaic

variable {F : FTy → Type} [FloatOps F]

/-- The slice at offset 0 reads the product at position `k` (the channel coordinate of a result index is 0, its extent being 1). -/
theorem slice0_reads (i : S8x1x4096x512.Idx) : idx_main_v3 i = seqAt i 0 (by decide) := by
  have h1 : (i 1).val < 1 := (i 1).isLt
  funext a; apply Fin.ext
  match a with
  | ⟨0, _⟩ => rfl
  | ⟨1, _⟩ => show (i 1).val = 0; omega
  | ⟨2, _⟩ => show (i 2).val = (i 2).val + 0; omega
  | ⟨3, _⟩ => rfl

/-- The slice at offset 1 reads the product at position `k + 1`. -/
theorem slice1_reads (i : S8x1x4096x512.Idx) : idx_main_v4 i = seqAt i 1 (by decide) := by
  have h1 : (i 1).val < 1 := (i 1).isLt
  funext a; apply Fin.ext
  match a with
  | ⟨0, _⟩ => rfl
  | ⟨1, _⟩ => show (i 1).val = 0; omega
  | ⟨2, _⟩ => show 1 + (i 2).val = (i 2).val + 1; omega
  | ⟨3, _⟩ => rfl

/-- The slice at offset 2 reads the product at position `k + 2`. -/
theorem slice2_reads (i : S8x1x4096x512.Idx) : idx_main_v6 i = seqAt i 2 (by decide) := by
  have h1 : (i 1).val < 1 := (i 1).isLt
  funext a; apply Fin.ext
  match a with
  | ⟨0, _⟩ => rfl
  | ⟨1, _⟩ => show (i 1).val = 0; omega
  | ⟨2, _⟩ => show 2 + (i 2).val = (i 2).val + 2; omega
  | ⟨3, _⟩ => rfl

/-- The slice at offset 3 reads the product at position `k + 3`. -/
theorem slice3_reads (i : S8x1x4096x512.Idx) : idx_main_v8 i = seqAt i 3 (by decide) := by
  have h1 : (i 1).val < 1 := (i 1).isLt
  funext a; apply Fin.ext
  match a with
  | ⟨0, _⟩ => rfl
  | ⟨1, _⟩ => show (i 1).val = 0; omega
  | ⟨2, _⟩ => show 3 + (i 2).val = (i 2).val + 3; omega
  | ⟨3, _⟩ => rfl

/-- The two broadcasts, composed, read the weight of the sequence position they are asked at: at `(b, 0, k + j, h)` the
    weight `(b, k + j)`. -/
theorem weight_reads (i : S8x1x4096x512.Idx) (j : Nat) (hj : j < 4) :
    idx_main_v0 (idx_main_v1 (seqAt i j hj)) = weightAt i j hj := by
  funext a; apply Fin.ext
  match a with
  | ⟨0, _⟩ => rfl
  | ⟨1, _⟩ => rfl

/-- The reference's result, as a function of its two arguments, is the running sum of the four weighted rows. -/
theorem reference_is_runningSum (x0 : (⟨S8x1x4099x512, .f32⟩ : BufTy).Contents (Elt F))
    (x1 : (⟨S8x4099, .f32⟩ : BufTy).Contents (Elt F)) :
    val_main_v9 (F := F) x0 x1 = runningSum x0 x1 := by
  funext i
  rw [val_main_v9_apply, val_main_v7_apply, val_main_v5_apply, val_main_v3_apply, val_main_v4_apply, val_main_v6_apply,
    val_main_v8_apply, slice0_reads, slice1_reads, slice2_reads, slice3_reads]
  simp only [val_main_v2_apply, val_main_v1_apply, val_main_v0_apply, weight_reads]

end Cert.ReferenceIdeal.RefValue

end
-- ==== Proof.KernelArray.lean ====
/-
  The kernel's result array is the window sum taken in two pairs.

  The kernel works on a grid of 8 × 2 points, one per batch `b` and per half `f` of the 512 features. At point `(b, f)` it is
  handed three blocks: all 4099 positions of batch `b` for the 256 features of half `f`; the 4099 weights of batch `b`, as a
  column; and the block of the result it must fill, all 4096 window starts of batch `b` for the same 256 features. Its body
  multiplies each position's features by that position's weight, adds each row to the next one (rows `r` and `r + 1`, for
  `r ≤ 4097`), and then adds each of those pair sums to the one two rows further down: at row `k` of the block this is
  `(w k + w (k+1)) + (w (k+2) + w (k+3))`. That much is the body's block as one function of its two loads, index by index
  (`E2`, imported), for any interpretation of the floats.

  Written here is the step from blocks to the array. (1) The weights column the kernel is handed is not an argument: the
  program first copies the weights `[8, 4099]` into an array `[8, 4099, 1]`, and the kernel's second window is over that copy;
  read at `(b, p, 0)` the copy holds the weight `(b, p)`. (2) A block's element sits in its array, on every axis, at the
  block's index times the block's extent plus the element's own coordinate. The three index maps, decided over the sixteen
  points, send `(b, f)` to block `(b, 0, 0, f)` of the sequences and of the result and to block `(b, 0, 0)` of the weights; so row
  `r`, lane `l` of the sequence block is `x[b, 0, r, 256 f + l]`, row `r` of the weights block is the weight `(b, r)`, and row
  `k`, lane `l` of the result block is the result index `(b, 0, k, 256 f + l)`. Hence what point `(b, f)` writes back is its block
  of the pair sum of the ARGUMENT arrays. (3) The result's blocks tile its array — index `(b, 0, k, h)` lies in the block of the
  point `(b, h / 256)`, and every point writes its block back — so after the run the result array is the pair sum everywhere.
-/
import proofs.«123186_j79491254714439_2_alg».proof.Proof.KernelValueP
import proofs.«123186_j79491254714439_2_alg».proof.Proof.WindowSum
import Idealize.ShloMosaic.Lib.Pipeline.Value
import Idealize.ShloMosaic.Lib.StableHlo.Run

noncomputable section

namespace Cert.KernelIdeal.ArrayValue

open Cert.KernelIdeal Cert.KernelIdeal.Gen Cert.KernelIdeal.ValueP Cert.WindowSum
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The body's block -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The body loads its two input blocks whole and stores its result block whole, so what it leaves in the result's buffer
    is the index-by-index function `E2` of the two input blocks themselves. -/
theorem body_block (x0 : Vec F S1x1x4099x256 .f32) (x1 : Vec F S1x4099x1 .f32) (y : S1x1x4096x256.Idx) :
    out0_2 x0 x1 y = E2 x0 x1 y := by
  unfold out0_2
  rw [canon2_eq]
  simp only [View.ld_unit_zero (S := S1x1x4099x256) zeros4, View.ld_unit_zero (S := S1x4099x1) zeros3]

/-! ## Where the blocks sit -/

/-- The three index maps, decided over the sixteen grid points: the sequence block moves with the result block on the batch
    axis and on the feature axis and stays at 0 on the other two; the weights block moves with the result block on the batch
    axis only; and the result's block index is `(b, 0, 0, f)` with `b ≤ 7`, `f ≤ 1`. -/
theorem index_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = win0_2.index t (3 : Fin 4)
    ∧ win0_1.index t (0 : Fin 3) = win0_2.index t (0 : Fin 4) ∧ win0_1.index t (1 : Fin 3) = 0
    ∧ win0_1.index t (2 : Fin 3) = 0
    ∧ win0_2.index t (1 : Fin 4) = 0 ∧ win0_2.index t (2 : Fin 4) = 0
    ∧ win0_2.index t (0 : Fin 4) ≤ 7 ∧ win0_2.index t (3 : Fin 4) ≤ 1 :=
  (by decide +kernel : ∀ t : Fin grid0.N, _)

/-- Every block `(b, 0, 0, f)` of the result is some grid point's. -/
theorem index_onto : ∀ (q0 : Fin 8) (q3 : Fin 2), ∃ t : Fin cfg0.N, win0_2.index t = ![q0.val, 0, 0, q3.val] :=
  (by decide +kernel : ∀ (q0 : Fin 8) (q3 : Fin 2), ∃ t : Fin grid0.N, win0_2.index t = ![q0.val, 0, 0, q3.val])

/-! ## The weights as the kernel finds them -/

/-- When the kernel is launched, the array its weights window is over holds the weights argument with a trailing unit axis
    added: the one operation the program runs before the launch. -/
theorem weights_at_entry (c : Dev nD) : (V m c main_v0 : S8x4099x1.Idx → Elt F .f32)
    = broadcastInDim S8x4099x1 ![0, 1] bcast_S8x4099_S8x4099x1_0_1 (m ((c : Thread nD τ).loc main_arg1)) := by
  dsimp only [V, hostOps0]; after_results

/-- Read at `(b, p, 0)` it is the weight `(b, p)`. -/
theorem weights_entry_apply (c : Dev nD) (k : S8x4099x1.Idx) (k' : S8x4099.Idx)
    (h0 : (k' 0).val = (k 0).val) (h1 : (k' 1).val = (k 1).val) :
    (V m c main_v0 : S8x4099x1.Idx → Elt F .f32) k = (m ((c : Thread nD τ).loc main_arg1) : S8x4099.Idx → Elt F .f32) k' := by
  rw [weights_at_entry]
  exact broadcastInDim_apply _ bcast_S8x4099_S8x4099x1_0_1 _ k k' (fun a => match a with
    | ⟨0, _⟩ => by show (k' 0).val = if (8 : Nat) = 1 then 0 else (k 0).val; rw [if_neg (by decide), h0]
    | ⟨1, _⟩ => by show (k' 1).val = if (4099 : Nat) = 1 then 0 else (k 1).val; rw [if_neg (by decide), h1])

/-! ## The input blocks at a point, as rows of the arguments

Both lemmas are stated for a result index `i` given by its coordinates in the result block of point `t` (`hi0`, `hi2`, `hi3`:
block index times extent plus the coordinate `y` inside the block), a shift `j`, and an index of the input block given by
its coordinates; they are used at the eight places where `E2` reads the blocks. -/

/-- Row `y₂ + j`, lane `y₃` of the sequence block at point `t` is the sequences argument at `(b, 0, k + j, h)`. -/
theorem seq_row (c : Dev nD) (t : Fin cfg0.N) (y : S1x1x4096x256.Idx) (i : OutShape.Idx)
    (hi0 : (i 0).val = win0_2.index t (0 : Fin 4) * 1 + 1 * (y 0).val)
    (hi2 : (i 2).val = win0_2.index t (2 : Fin 4) * 4096 + 1 * (y 2).val)
    (hi3 : (i 3).val = win0_2.index t (3 : Fin 4) * 256 + 1 * (y 3).val)
    (j : Nat) (hj : j < 4) (y0 : S1x1x4099x256.Idx)
    (hy0 : (y0 0).val = 0) (hy1 : (y0 1).val = 0) (hy2 : (y0 2).val = (y 2).val + j) (hy3 : (y0 3).val = (y 3).val) :
    (iblk m c 0 t : Vec F S1x1x4099x256 .f32) y0
      = (m ((c : Thread nD τ).loc main_arg0) : SeqShape.Idx → Elt F .f32) (seqAt i j hj) := by
  obtain ⟨e00, e01, e02, e03, e10, e11, e12, e21, e22, b0, b3⟩ := index_facts t
  have hy : (y 0).val < 1 := (y 0).isLt
  show V m c main_arg0 (((cfg0.win 0).blk t).view.emb y0) = _
  rw [V_main_arg0]
  congr 1
  funext a; apply Fin.ext
  match a with
  | ⟨0, _⟩ => show win0_0.index t (0 : Fin 4) * 1 + 1 * (y0 0).val = (i 0).val; omega
  | ⟨1, _⟩ => show win0_0.index t (1 : Fin 4) * 1 + 1 * (y0 1).val = 0; omega
  | ⟨2, _⟩ => show win0_0.index t (2 : Fin 4) * 4099 + 1 * (y0 2).val = (i 2).val + j; omega
  | ⟨3, _⟩ => show win0_0.index t (3 : Fin 4) * 256 + 1 * (y0 3).val = (i 3).val; omega

/-- Row `y₂ + j` of the weights block at point `t` is the weights argument at `(b, k + j)`. -/
theorem weight_row (c : Dev nD) (t : Fin cfg0.N) (y : S1x1x4096x256.Idx) (i : OutShape.Idx)
    (hi0 : (i 0).val = win0_2.index t (0 : Fin 4) * 1 + 1 * (y 0).val)
    (hi2 : (i 2).val = win0_2.index t (2 : Fin 4) * 4096 + 1 * (y 2).val)
    (j : Nat) (hj : j < 4) (y1 : S1x4099x1.Idx)
    (hy0 : (y1 0).val = 0) (hy1 : (y1 1).val = (y 2).val + j) (hy2 : (y1 2).val = 0) :
    (iblk m c 1 t : Vec F S1x4099x1 .f32) y1
      = (m ((c : Thread nD τ).loc main_arg1) : WeightShape.Idx → Elt F .f32) (weightAt i j hj) := by
  obtain ⟨e00, e01, e02, e03, e10, e11, e12, e21, e22, b0, b3⟩ := index_facts t
  have hy : (y 0).val < 1 := (y 0).isLt
  show V m c main_v0 (((cfg0.win 1).blk t).view.emb y1) = _
  refine weights_entry_apply m c _ _ ?_ ?_
  · show (i 0).val = win0_1.index t (0 : Fin 3) * 1 + 1 * (y1 0).val; omega
  · show (i 2).val + j = win0_1.index t (1 : Fin 3) * 4099 + 1 * (y1 1).val; omega

/-! ## From blocks to the array -/

/-- WHAT POINT `t` WRITES BACK is its block of the pair sum of the two argument arrays. -/
theorem flushed_eq (c : Dev nD) (t : Fin cfg0.N) :
    (dats m 0 c).flushed 2 t = ((cfg0.win 2).blk t).view.read (Elt F)
      (pairSum (m ((c : Thread nD τ).loc main_arg0)) (m ((c : Thread nD τ).loc main_arg1))) := by
  rw [flushed2]
  funext y
  show out0_2 (iblk m c 0 t) (iblk m c 1 t) y
    = pairSum (m ((c : Thread nD τ).loc main_arg0)) (m ((c : Thread nD τ).loc main_arg1)) (((cfg0.win 2).blk t).view.emb y)
  refine (body_block _ _ y).trans ?_
  have s0 := seq_row m c t y (((cfg0.win 2).blk t).view.emb y) rfl rfl rfl 0 (by decide) (ix2_0 y) rfl rfl rfl rfl
  have w0 := weight_row m c t y (((cfg0.win 2).blk t).view.emb y) rfl rfl 0 (by decide) (ix2_1 y) rfl rfl rfl
  have s1 := seq_row m c t y (((cfg0.win 2).blk t).view.emb y) rfl rfl rfl 1 (by decide) (ix2_2 y) rfl rfl rfl rfl
  have w1 := weight_row m c t y (((cfg0.win 2).blk t).view.emb y) rfl rfl 1 (by decide) (ix2_3 y) rfl rfl rfl
  have s2 := seq_row m c t y (((cfg0.win 2).blk t).view.emb y) rfl rfl rfl 2 (by decide) (ix2_4 y) rfl rfl rfl rfl
  have w2 := weight_row m c t y (((cfg0.win 2).blk t).view.emb y) rfl rfl 2 (by decide) (ix2_5 y) rfl rfl rfl
  have s3 := seq_row m c t y (((cfg0.win 2).blk t).view.emb y) rfl rfl rfl 3 (by decide) (ix2_6 y) rfl rfl rfl rfl
  have w3 := weight_row m c t y (((cfg0.win 2).blk t).view.emb y) rfl rfl 3 (by decide) (ix2_7 y) rfl rfl rfl
  show FloatOps.addf
      (FloatOps.addf (FloatOps.mulf (iblk m c 0 t (ix2_0 y)) (iblk m c 1 t (ix2_1 y)))
        (FloatOps.mulf (iblk m c 0 t (ix2_2 y)) (iblk m c 1 t (ix2_3 y))))
      (FloatOps.addf (FloatOps.mulf (iblk m c 0 t (ix2_4 y)) (iblk m c 1 t (ix2_5 y)))
        (FloatOps.mulf (iblk m c 0 t (ix2_6 y)) (iblk m c 1 t (ix2_7 y)))) = _
  rw [s0, w0, s1, w1, s2, w2, s3, w3]

/-- An index of the result array is in point `t`'s block iff each coordinate is in the block's range on its axis. -/
theorem mem_block (t : Fin cfg0.N) (i : S8x1x4096x512.Idx) :
    i ∈ ((cfg0.win 2).blk t).view.set ↔ ∀ a : Fin 4, win0_2.index t a * S1x1x4096x256.size a ≤ (i a).val
      ∧ (i a).val < win0_2.index t a * S1x1x4096x256.size a + S1x1x4096x256.size a := by
  show i ∈ ((View.whole main_v1).slice (win0_2.rect t)).set ↔ _
  rw [View.set_slice_whole, Rect.mem_set_unit]
  exact Iff.rfl

/-- THE BLOCKS TILE THE ARRAY: the result index `(b, 0, k, h)` is in the block of the point whose block index is
    `(b, 0, 0, h / 256)`, and that point, like every point, writes its block back. -/
theorem covered (i : S8x1x4096x512.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 4096 := (i 2).isLt
  have hi3 : (i 3).val < 512 := (i 3).isLt
  obtain ⟨t, ht⟩ := index_onto ⟨(i 0).val, hi0⟩ ⟨(i 3).val / 256, by omega⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = (i 3).val / 256 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 4096 ≤ (i 2).val ∧ (i 2).val < win0_2.index t (2 : Fin 4) * 4096 + 4096; omega
  | ⟨3, _⟩ => show win0_2.index t (3 : Fin 4) * 256 ≤ (i 3).val ∧ (i 3).val < win0_2.index t (3 : Fin 4) * 256 + 256; omega

/-- THE ARRAY after the run: the pair sum of the two argument arrays, at every index. -/
theorem final (c : Dev nD) : (dats m 0 c).arrAt 2 cfg0.N
    = pairSum (m ((c : Thread nD τ).loc main_arg0)) (m ((c : Thread nD τ).loc main_arg1)) :=
  (dats m 0 c).arrAt_eq_of_cover 2 _ (fun t _ => flushed_eq m c t) covered

/-- The kernel's run, read: every weakly fair execution terminates with the result array at the pair sum of the arguments
    as launched, and the arguments unchanged. -/
theorem run : θ_run defs (onTc (τ := τ) (main (F := F))) ⟨m, fun _ => 0, ρ⟩ fun r => ∀ c : Dev nD,
      r.2.mem ((c : Thread nD τ).loc main_v1)
        = pairSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.lean ====
/- The proof of `Cert.Claim` for a sliding-window sum of weighted rows.

   Both programs take sequences `x : [8, 1, 4099, 512]` and weights `a : [8, 4099]`, form the weighted rows
   `w b k h = x[b, 0, k, h] · a[b, k]`, and return at `(b, 0, k, h)` the sum of the four rows at positions `k … k + 3`. The
   kernel adds them in two pairs, `(w k + w (k+1)) + (w (k+2) + w (k+3))`; the reference as a running sum from the left,
   `((w k + w (k+1)) + w (k+2)) + w (k+3)`. Over the extended reals the two are equal by associativity of addition, which
   holds for all extended reals, so the finiteness of the inputs is never used.

   Proof/WindowSum.lean states both bracketings as functions of the two arguments, and that law. Proof/ReferenceSum.lean
   reads the reference's result as the running sum, and Proof/KernelArray.lean reads the kernel's result array as the pair
   sum: first what one grid point writes back, then the whole array, the result's blocks tiling it. Here the five claims
   are put together. Each frame is the program's run with what it says of the result dropped; the kernel's idealization
   rewrote no operation, so there is nothing for it to preserve; and for the algebraic claim the common value of the two
   results is the pair sum of the kernel's arguments, which the reference reaches through the law once its arguments are
   replaced by the kernel's, with which they agree. -/
import proofs.«123186_j79491254714439_2_alg».proof.Defs
import proofs.«123186_j79491254714439_2_alg».proof.Proof.Gen.Kernel
import proofs.«123186_j79491254714439_2_alg».proof.Proof.Gen.Kernel.Frame
import proofs.«123186_j79491254714439_2_alg».proof.Proof.Gen.KernelIdeal
import proofs.«123186_j79491254714439_2_alg».proof.Proof.Gen.KernelIdeal.Frame
import proofs.«123186_j79491254714439_2_alg».proof.Proof.Gen.ReferenceIdeal
import proofs.«123186_j79491254714439_2_alg».proof.Proof.Gen.ReferenceIdeal.Run
import proofs.«123186_j79491254714439_2_alg».proof.Proof.Gen.ReferenceIdeal.Read
import proofs.«123186_j79491254714439_2_alg».proof.Proof.Gen.Pre_finite_inputs
import proofs.«123186_j79491254714439_2_alg».proof.Proof.WindowSum
import proofs.«123186_j79491254714439_2_alg».proof.Proof.ReferenceSum
import proofs.«123186_j79491254714439_2_alg».proof.Proof.KernelArray
import Idealize.ShloMosaic.Adequacy
import Idealize.ShloMosaic.Init

noncomputable section

namespace Cert.Proof

open Idealize.ShloMosaic Idealize.SL.Sem

/-- The kernel as printed, word by word, runs to the end without a fault and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories that agree on the two arguments, the kernel's result array ends at the pair sum of its arguments and the
    reference's at the running sum of its own; the arguments agree, and the two sums are one function of them. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_is_runningSum,
    (hagree c).1, (hagree c).2]
  exact (Cert.WindowSum.pairSum_eq_runningSum _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
